-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x128x64 : Shape := ⟨3, ![64, 128, 64]⟩
abbrev S64x4x128x128 : Shape := ⟨4, ![64, 4, 128, 128]⟩
abbrev S_ : Shape := ⟨0, ![]⟩

class Facts : Prop where
  bcast_S_S64x128x64 : S_.BroadcastsInDim S64x128x64 (![] : Fin 0 → Fin S64x128x64.rank)
  reducesTo_S64x128x64_S_d0_1_2 : S64x128x64.ReducesTo [0, 1, 2] S_
  h_S_ : 0 < S_.numel
  bcast_S_S64x4x128x128 : S_.BroadcastsInDim S64x4x128x128 (![] : Fin 0 → Fin S64x4x128x128.rank)
  reducesTo_S64x4x128x128_S_d0_1_2_3 : S64x4x128x128.ReducesTo [0, 1, 2, 3] S_

variable [Facts]

def fn {F : FTy → Type} [FloatOps F] (main_arg0 : FVec F S64x128x64 .f32) (main_arg1 : FVec F S64x4x128x128 .f32) : IVec S_ 1 :=
  let main_v0 : FVec F S64x128x64 .f32 := Host.absf main_arg0
  let main_cst : FVec F S_ .f32 := constant S_ .f32 0x7F800000#32
  let main_v1 : FVec F S64x128x64 .f32 := broadcastInDim S64x128x64 ![] bcast_S_S64x128x64 main_cst
  let main_v2 : IVec S64x128x64 1 := cmpf .olt main_v0 main_v1
  let main_c : IVec S_ 1 := constantI S_ 1 1#1
  let main_v3 : IVec S_ 1 := (fun x v => Host.reduce IntOp.andi x v reducesTo_S64x128x64_S_d0_1_2 h_S_) main_v2 main_c
  let main_v4 : FVec F S64x4x128x128 .f32 := Host.absf main_arg1
  let main_cst_0 : FVec F S_ .f32 := constant S_ .f32 0x7F800000#32
  let main_v5 : FVec F S64x4x128x128 .f32 := broadcastInDim S64x4x128x128 ![] bcast_S_S64x4x128x128 main_cst_0
  let main_v6 : IVec S64x4x128x128 1 := cmpf .olt main_v4 main_v5
  let main_c_1 : IVec S_ 1 := constantI S_ 1 1#1
  let main_v7 : IVec S_ 1 := (fun x v => Host.reduce IntOp.andi x v reducesTo_S64x4x128x128_S_d0_1_2_3 h_S_) main_v6 main_c_1
  let main_v8 : IVec S_ 1 := andi main_v3 main_v7
  main_v8
-- ==== Kernel.lean ====
abbrev S64x128x64 : Shape := ⟨3, ![64, 128, 64]⟩
abbrev S64x4x128x128 : Shape := ⟨4, ![64, 4, 128, 128]⟩
abbrev S8x4x128x128 : Shape := ⟨4, ![8, 4, 128, 128]⟩
abbrev S8x128x64 : Shape := ⟨3, ![8, 128, 64]⟩
abbrev S1x128x64 : Shape := ⟨3, ![1, 128, 64]⟩
abbrev S128x64 : Shape := ⟨2, ![128, 64]⟩
abbrev S1x1x128x128 : Shape := ⟨4, ![1, 1, 128, 128]⟩
abbrev S128x128 : Shape := ⟨2, ![128, 128]⟩
abbrev S128x8 : Shape := ⟨2, ![128, 8]⟩
abbrev S8x64 : Shape := ⟨2, ![8, 64]⟩
abbrev S128x8x1 : Shape := ⟨3, ![128, 8, 1]⟩
abbrev S1x8x64 : Shape := ⟨3, ![1, 8, 64]⟩
abbrev S128x8x64 : Shape := ⟨3, ![128, 8, 64]⟩

abbrev nBuf : Space → Nat
  | .hbm => 3
  | .vmem => 6
  | .smem => 0
  | _ => 0

abbrev bufTy : (tb : Table) → Fin (tcTables nBuf tb) → BufTy
  | .hbm, ⟨0, _⟩ => ⟨S64x128x64, .f32⟩
  | .hbm, ⟨1, _⟩ => ⟨S64x4x128x128, .f32⟩
  | .hbm, ⟨2, _⟩ => ⟨S64x128x64, .f32⟩
  | .local _ .vmem, ⟨0, _⟩ => ⟨S8x4x128x128, .f32⟩
  | .local _ .vmem, ⟨1, _⟩ => ⟨S8x4x128x128, .f32⟩
  | .local _ .vmem, ⟨2, _⟩ => ⟨S8x128x64, .f32⟩
  | .local _ .vmem, ⟨3, _⟩ => ⟨S8x128x64, .f32⟩
  | .local _ .vmem, ⟨4, _⟩ => ⟨S8x128x64, .f32⟩
  | .local _ .vmem, ⟨5, _⟩ => ⟨S8x128x64, .f32⟩
  | _, _ => ⟨S64x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_off1 (k0_t1 : Fin k0_t1_loop.trips) : Fin 3 → Nat :=
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v1 : BitVec 32 := Scalar.muli arg4 c1_i32_1
  let v2 : BitVec 32 := Scalar.addi c0_i32_2 v1
  let v3 : Index := Scalar.indexCast v2
  let c0 : Index := 0#32
  let c0_3 : Index := 0#32
  ![v3.toNat, 0, 0]
def k0_off2 (k0_t1 : Fin k0_t1_loop.trips) : Fin 4 → Nat :=
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v1 : BitVec 32 := Scalar.muli arg4 c1_i32_1
  let v2 : BitVec 32 := Scalar.addi c0_i32_2 v1
  let v7 : Index := Scalar.indexCast v2
  let c0_4 : Index := 0#32
  let c0_5 : Index := 0#32
  let c0_6 : Index := 0#32
  ![v7.toNat, 0, 0, 0]
def k0_off3 (k0_t1 : Fin k0_t1_loop.trips) : Fin 4 → Nat :=
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v1 : BitVec 32 := Scalar.muli arg4 c1_i32_1
  let v2 : BitVec 32 := Scalar.addi c0_i32_2 v1
  let v156 : Index := Scalar.indexCast v2
  let c1 : Index := 1#32
  let c0_24 : Index := 0#32
  let c0_25 : Index := 0#32
  ![v156.toNat, 1, 0, 0]
def k0_off4 (k0_t1 : Fin k0_t1_loop.trips) : Fin 4 → Nat :=
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v1 : BitVec 32 := Scalar.muli arg4 c1_i32_1
  let v2 : BitVec 32 := Scalar.addi c0_i32_2 v1
  let v305 : Index := Scalar.indexCast v2
  let c2 : Index := 2#32
  let c0_43 : Index := 0#32
  let c0_44 : Index := 0#32
  ![v305.toNat, 2, 0, 0]
def k0_off5 (k0_t1 : Fin k0_t1_loop.trips) : Fin 4 → Nat :=
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v1 : BitVec 32 := Scalar.muli arg4 c1_i32_1
  let v2 : BitVec 32 := Scalar.addi c0_i32_2 v1
  let v454 : Index := Scalar.indexCast v2
  let c3 : Index := 3#32
  let c0_62 : Index := 0#32
  let c0_63 : Index := 0#32
  ![v454.toNat, 3, 0, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x4x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  h_S1x128x64 : 0 < S1x128x64.numel
  shapeCasts_S1x128x64_S128x64 : S1x128x64.ShapeCasts S128x64
  h_S1x1x128x128 : 0 < S1x1x128x128.numel
  shapeCasts_S1x1x128x128_S128x128 : S1x1x128x128.ShapeCasts S128x128
  slices_S128x128_o0_0_S128x8 : S128x128.Slices ![0, 0] S128x8
  slices_S128x64_o0_0_S8x64 : S128x64.Slices ![0, 0] S8x64
  shapeCasts_S128x8_S128x8x1 : S128x8.ShapeCasts S128x8x1
  shapeCasts_S8x64_S1x8x64 : S8x64.ShapeCasts S1x8x64
  broadcasts_S128x8x1_S128x8x64 : S128x8x1.Broadcasts S128x8x64
  broadcasts_S1x8x64_S128x8x64 : S1x8x64.Broadcasts S128x8x64
  reduces_S128x8x64_S128x64 : S128x8x64.Reduces [1] S128x64
  slices_S128x128_o0_8_S128x8 : S128x128.Slices ![0, 8] S128x8
  slices_S128x64_o8_0_S8x64 : S128x64.Slices ![8, 0] S8x64
  slices_S128x128_o0_16_S128x8 : S128x128.Slices ![0, 16] S128x8
  slices_S128x64_o16_0_S8x64 : S128x64.Slices ![16, 0] S8x64
  slices_S128x128_o0_24_S128x8 : S128x128.Slices ![0, 24] S128x8
  slices_S128x64_o24_0_S8x64 : S128x64.Slices ![24, 0] S8x64
  slices_S128x128_o0_32_S128x8 : S128x128.Slices ![0, 32] S128x8
  slices_S128x64_o32_0_S8x64 : S128x64.Slices ![32, 0] S8x64
  slices_S128x128_o0_40_S128x8 : S128x128.Slices ![0, 40] S128x8
  slices_S128x64_o40_0_S8x64 : S128x64.Slices ![40, 0] S8x64
  slices_S128x128_o0_48_S128x8 : S128x128.Slices ![0, 48] S128x8
  slices_S128x64_o48_0_S8x64 : S128x64.Slices ![48, 0] S8x64
  slices_S128x128_o0_56_S128x8 : S128x128.Slices ![0, 56] S128x8
  slices_S128x64_o56_0_S8x64 : S128x64.Slices ![56, 0] S8x64
  slices_S128x128_o0_64_S128x8 : S128x128.Slices ![0, 64] S128x8
  slices_S128x64_o64_0_S8x64 : S128x64.Slices ![64, 0] S8x64
  slices_S128x128_o0_72_S128x8 : S128x128.Slices ![0, 72] S128x8
  slices_S128x64_o72_0_S8x64 : S128x64.Slices ![72, 0] S8x64
  slices_S128x128_o0_80_S128x8 : S128x128.Slices ![0, 80] S128x8
  slices_S128x64_o80_0_S8x64 : S128x64.Slices ![80, 0] S8x64
  slices_S128x128_o0_88_S128x8 : S128x128.Slices ![0, 88] S128x8
  slices_S128x64_o88_0_S8x64 : S128x64.Slices ![88, 0] S8x64
  slices_S128x128_o0_96_S128x8 : S128x128.Slices ![0, 96] S128x8
  slices_S128x64_o96_0_S8x64 : S128x64.Slices ![96, 0] S8x64
  slices_S128x128_o0_104_S128x8 : S128x128.Slices ![0, 104] S128x8
  slices_S128x64_o104_0_S8x64 : S128x64.Slices ![104, 0] S8x64
  slices_S128x128_o0_112_S128x8 : S128x128.Slices ![0, 112] S128x8
  slices_S128x64_o112_0_S8x64 : S128x64.Slices ![112, 0] S8x64
  slices_S128x128_o0_120_S128x8 : S128x128.Slices ![0, 120] S128x8
  slices_S128x64_o120_0_S8x64 : S128x64.Slices ![120, 0] S8x64
  shapeCasts_S128x64_S1x128x64 : S128x64.ShapeCasts S1x128x64
  hrank0 : 0 < grid0.rank
  k0_t1_ok : k0_t1_loop.OK
  k0_off1_inb : ∀ k0_t1 : Fin k0_t1_loop.trips, ∀ a, (k0_off1 k0_t1) a + S1x128x64.size a ≤ S8x128x64.size a
  k0_off2_inb : ∀ k0_t1 : Fin k0_t1_loop.trips, ∀ a, (k0_off2 k0_t1) a + S1x1x128x128.size a ≤ S8x4x128x128.size a
  k0_off3_inb : ∀ k0_t1 : Fin k0_t1_loop.trips, ∀ a, (k0_off3 k0_t1) a + S1x1x128x128.size a ≤ S8x4x128x128.size a
  k0_off4_inb : ∀ k0_t1 : Fin k0_t1_loop.trips, ∀ a, (k0_off4 k0_t1) a + S1x1x128x128.size a ≤ S8x4x128x128.size a
  k0_off5_inb : ∀ k0_t1 : Fin k0_t1_loop.trips, ∀ a, (k0_off5 k0_t1) a + S1x1x128x128.size a ≤ S8x4x128x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x4x128x128.size a ≤ S64x4x128x128.size a
  hwx0_0 : ∀ i : grid0.Coords, EltTy.bits .f32 = 32 ∨ (Rect.block (s := S64x4x128x128) S8x4x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128x64.size a ≤ S64x128x64.size a
  hwx0_1 : ∀ i : grid0.Coords, EltTy.bits .f32 = 32 ∨ (Rect.block (s := S64x128x64) S8x128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128x64.size a ≤ S64x128x64.size a
  hwx0_2 : ∀ i : grid0.Coords, EltTy.bits .f32 = 32 ∨ (Rect.block (s := S64x128x64) S8x128x64.size (cc0_transform_2 i) (hinb0_2 i)).WholeWords (EltTy.packing .f32)

variable [Facts₀]

abbrev win0_0 : Pipeline.Window sig grid0 :=
  Pipeline.Window.ofSpec (Memref.whole main_arg1) S8x4x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8x128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x128x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x128x64 : Shape := ⟨3, ![64, 128, 64]⟩
abbrev S64x4x128x128 : Shape := ⟨4, ![64, 4, 128, 128]⟩
abbrev S64x1x128x128 : Shape := ⟨4, ![64, 1, 128, 128]⟩
abbrev S64x128x128 : Shape := ⟨3, ![64, 128, 128]⟩
abbrev S64x128x128x1 : Shape := ⟨4, ![64, 128, 128, 1]⟩
abbrev S64x1x128x64 : Shape := ⟨4, ![64, 1, 128, 64]⟩
abbrev S64x128x128x64 : Shape := ⟨4, ![64, 128, 128, 64]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S64x128x64, .f32⟩
  | .hbm, ⟨1, _⟩ => ⟨S64x4x128x128, .f32⟩
  | .hbm, ⟨2, _⟩ => ⟨S64x1x128x128, .f32⟩
  | .hbm, ⟨3, _⟩ => ⟨S64x128x128, .f32⟩
  | .hbm, ⟨4, _⟩ => ⟨S64x128x128x1, .f32⟩
  | .hbm, ⟨5, _⟩ => ⟨S64x1x128x64, .f32⟩
  | .hbm, ⟨6, _⟩ => ⟨S64x128x128x64, .f32⟩
  | .hbm, ⟨7, _⟩ => ⟨S64x128x128x64, .f32⟩
  | .hbm, ⟨8, _⟩ => ⟨S64x128x128x64, .f32⟩
  | .hbm, ⟨9, _⟩ => ⟨S_, .f32⟩
  | .hbm, ⟨10, _⟩ => ⟨S64x128x64, .f32⟩
  | .hbm, ⟨11, _⟩ => ⟨S64x1x128x128, .f32⟩
  | .hbm, ⟨12, _⟩ => ⟨S64x128x128, .f32⟩
  | .hbm, ⟨13, _⟩ => ⟨S64x128x128x1, .f32⟩
  | .hbm, ⟨14, _⟩ => ⟨S64x1x128x64, .f32⟩
  | .hbm, ⟨15, _⟩ => ⟨S64x128x128x64, .f32⟩
  | .hbm, ⟨16, _⟩ => ⟨S64x128x128x64, .f32⟩
  | .hbm, ⟨17, _⟩ => ⟨S64x128x128x64, .f32⟩
  | .hbm, ⟨18, _⟩ => ⟨S_, .f32⟩
  | .hbm, ⟨19, _⟩ => ⟨S64x128x64, .f32⟩
  | .hbm, ⟨20, _⟩ => ⟨S64x128x64, .f32⟩
  | .hbm, ⟨21, _⟩ => ⟨S64x1x128x128, .f32⟩
  | .hbm, ⟨22, _⟩ => ⟨S64x128x128, .f32⟩
  | .hbm, ⟨23, _⟩ => ⟨S64x128x128x1, .f32⟩
  | .hbm, ⟨24, _⟩ => ⟨S64x1x128x64, .f32⟩
  | .hbm, ⟨25, _⟩ => ⟨S64x128x128x64, .f32⟩
  | .hbm, ⟨26, _⟩ => ⟨S64x128x128x64, .f32⟩
  | .hbm, ⟨27, _⟩ => ⟨S64x128x128x64, .f32⟩
  | .hbm, ⟨28, _⟩ => ⟨S_, .f32⟩
  | .hbm, ⟨29, _⟩ => ⟨S64x128x64, .f32⟩
  | .hbm, ⟨30, _⟩ => ⟨S64x128x64, .f32⟩
  | .hbm, ⟨31, _⟩ => ⟨S64x1x128x128, .f32⟩
  | .hbm, ⟨32, _⟩ => ⟨S64x128x128, .f32⟩
  | .hbm, ⟨33, _⟩ => ⟨S64x128x128x1, .f32⟩
  | .hbm, ⟨34, _⟩ => ⟨S64x1x128x64, .f32⟩
  | .hbm, ⟨35, _⟩ => ⟨S64x128x128x64, .f32⟩
  | .hbm, ⟨36, _⟩ => ⟨S64x128x128x64, .f32⟩
  | .hbm, ⟨37, _⟩ => ⟨S64x128x128x64, .f32⟩
  | .hbm, ⟨38, _⟩ => ⟨S_, .f32⟩
  | .hbm, ⟨39, _⟩ => ⟨S64x128x64, .f32⟩
  | .hbm, ⟨40, _⟩ => ⟨S64x128x64, .f32⟩
  | _, _ => ⟨S64x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst_1 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst_2 : Ref sig .tc := ⟨.hbm, 38, rfl⟩
abbrev main_v33 : Ref sig .tc := ⟨.hbm, 39, rfl⟩
abbrev main_v34 : Ref sig .tc := ⟨.hbm, 40, rfl⟩

abbrev nD : Nat := 1
abbrev τ : Topo := Topo.v7x

variable {F : FTy → Type} [FloatOps F]

class Facts₀ : Prop where
  slices_S64x4x128x128_S64x1x128x128_0_0_0_0 : S64x4x128x128.Slices ![0, 0, 0, 0] S64x1x128x128
  shapeCasts_S64x1x128x128_S64x128x128 : S64x1x128x128.ShapeCasts S64x128x128
  bcast_S64x128x128_S64x128x128x1_0_1_2 : S64x128x128.BroadcastsInDim S64x128x128x1 (![0, 1, 2] : Fin 3 → Fin S64x128x128x1.rank)
  bcast_S64x128x64_S64x1x128x64_0_2_3 : S64x128x64.BroadcastsInDim S64x1x128x64 (![0, 2, 3] : Fin 3 → Fin S64x1x128x64.rank)
  bcast_S64x128x128x1_S64x128x128x64_0_1_2_3 : S64x128x128x1.BroadcastsInDim S64x128x128x64 (![0, 1, 2, 3] : Fin 4 → Fin S64x128x128x64.rank)
  bcast_S64x1x128x64_S64x128x128x64_0_1_2_3 : S64x1x128x64.BroadcastsInDim S64x128x128x64 (![0, 1, 2, 3] : Fin 4 → Fin S64x128x128x64.rank)
  reducesTo_S64x128x128x64_S64x128x64_d2 : S64x128x128x64.ReducesTo [2] S64x128x64
  h_S_ : 0 < S_.numel
  slices_S64x4x128x128_S64x1x128x128_0_1_0_0 : S64x4x128x128.Slices ![0, 1, 0, 0] S64x1x128x128
  slices_S64x4x128x128_S64x1x128x128_0_2_0_0 : S64x4x128x128.Slices ![0, 2, 0, 0] S64x1x128x128
  slices_S64x4x128x128_S64x1x128x128_0_3_0_0 : S64x4x128x128.Slices ![0, 3, 0, 0] S64x1x128x128

variable [Facts₀]

class Facts : Prop extends Facts₀ where

variable [Facts]
-- ==== Proof.LibMaxChunk.lean ====
/-
  One chunk of a max-plus style contraction, read at an index on the extended reals.

  Given a matrix `a` of shape [128, 128] and a matrix `x` of shape [128, 64], a chunk at offset `o` takes the eight columns
  `o … o+7` of `a` and the eight rows `o … o+7` of `x`, forms the [128, 8, 64] array of products `a[i, o+jj] · x[o+jj, k]`
  (each factor spread along the axis it lacks) and takes the maximum over the middle axis, starting from the float word for
  minus infinity. At `(i, k)` this is the fold of `max` over `jj : Fin 8` of those products.
-/
import Idealize.ShloMosaic.PureOps.Ideal.Laws
import Idealize.ShloMosaic.Lib.ValueIdx
import Idealize.ShloMosaic.Lib.ValueLayout
import Idealize.ShloMosaic.Lib.Pipeline.Value

noncomputable section

namespace Cert.GraphMaxPool

open Idealize.ShloMosaic Idealize.ShloMosaic.ValueIdx

/-- The shapes of a chunk: the two matrices, their slices, the slices with the missing axis added, the products, the result. -/
abbrev Sa : Shape := ⟨2, ![128, 128]⟩
abbrev Sx : Shape := ⟨2, ![128, 64]⟩
abbrev Sas : Shape := ⟨2, ![128, 8]⟩
abbrev Sxs : Shape := ⟨2, ![8, 64]⟩
abbrev Sas1 : Shape := ⟨3, ![128, 8, 1]⟩
abbrev Sxs1 : Shape := ⟨3, ![1, 8, 64]⟩
abbrev Sprod : Shape := ⟨3, ![128, 8, 64]⟩

/-- Eight columns from `o` fit in the 128 columns of `a`. -/
theorem slices_cols (o : ℕ) (ho : o + 8 ≤ 128) : Sa.Slices ![0, o] Sas :=
  ⟨rfl, fun ax => by match ax with | ⟨0, _⟩ => exact Nat.le_refl _ | ⟨1, _⟩ => exact ho⟩

/-- Eight rows from `o` fit in the 128 rows of `x`. -/
theorem slices_rows (o : ℕ) (ho : o + 8 ≤ 128) : Sx.Slices ![o, 0] Sxs :=
  ⟨rfl, fun ax => by match ax with | ⟨0, _⟩ => exact ho | ⟨1, _⟩ => exact Nat.le_refl _⟩

variable {F : FTy → Type} [FloatOps F]

/-- The chunk's maximum as the kernel computes it from the two slices: add the missing axes, spread, multiply, reduce. -/
def chunkOfSlices (ac : FVec F Sas .f32) (xr : FVec F Sxs .f32) : FVec F Sx .f32 :=
  multiReduction .maximumf [1] Sx
    (mulf (broadcastTo Sprod (shapeCast Sas1 ac (by decide)) (by decide)) (broadcastTo Sprod (shapeCast Sxs1 xr (by decide)) (by decide)))
    0xFF800000#32 (by decide) (.inl rfl) rfl

/-- The chunk's maximum at offset `o`. -/
def chunkMax (o : ℕ) (ho : o + 8 ≤ 128) (a : FVec F Sa .f32) (x : FVec F Sx .f32) : FVec F Sx .f32 :=
  chunkOfSlices (extractStridedSlice Sas ![0, o] a (slices_cols o ho)) (extractStridedSlice Sxs ![o, 0] x (slices_rows o ho))

/-- The maximum over the middle axis of a [128, 8, 64] array, from minus infinity's word, at `(i, k)`: the fold of `max` over
    the middle coordinate. -/
theorem maxMiddle_apply (src : FVec Ideal Sprod .f32) (h : Sprod.Reduces [1] Sx) (hφ : FKind.Formats .f32)
    (hacc : (0xFF800000#32 : BitVec 32) = 0xFF800000#32) (i : Fin 128) (k : Fin 64) :
    multiReduction .maximumf [1] Sx src 0xFF800000#32 h hφ hacc (ix2 i k)
      = (Finset.univ : Finset (Fin 8)).fold max (FloatOps.ofBits (F := Ideal) .f32 0xFF800000#32) fun jj => src (ix3 i jj k) := by
  refine (Ideal.multiReduction_maximumf_single src 0xFF800000#32 h hφ hacc (ix2 i k)).trans ?_
  refine Finset.fold_congr fun jj _ => ?_
  show src (h.lift (ix2 i k) jj) = src (ix3 i jj k)
  refine congrArg src (funext fun ax => ?_)
  match ax with | ⟨0, _⟩ => rfl | ⟨1, _⟩ => rfl | ⟨2, _⟩ => rfl

/-- At `(i, k)` the maximum from two slices is the fold of `max`, from minus infinity's word, of `ac[i, jj] · xr[jj, k]`. -/
theorem chunkOfSlices_apply (ac : FVec Ideal Sas .f32) (xr : FVec Ideal Sxs .f32) (i : Fin 128) (k : Fin 64) :
    chunkOfSlices ac xr (ix2 i k)
      = (Finset.univ : Finset (Fin 8)).fold max (FloatOps.ofBits (F := Ideal) .f32 0xFF800000#32) fun jj => ac (ix2 i jj) * xr (ix2 jj k) := by
  unfold chunkOfSlices
  refine (maxMiddle_apply _ _ _ _ i k).trans ?_
  refine Finset.fold_congr fun jj _ => ?_
  rw [mulf_apply]
  congr 1
  · rw [broadcastTo_apply _ _ (ix3 i jj k) (ix3 i jj (0 : Fin 1)) (fun ax => by
      match ax with | ⟨0, _⟩ => rfl | ⟨1, _⟩ => rfl | ⟨2, _⟩ => rfl)]
    exact shapeCast_apply ac _ _ (ix2 i jj) (by
      rw [Shape.rowMajor_val_two, Shape.rowMajor_val_three]
      show i.val * 8 + jj.val = (i.val * 8 + jj.val) * 1 + 0
      omega)
  · rw [broadcastTo_apply _ _ (ix3 i jj k) (ix3 (0 : Fin 1) jj k) (fun ax => by
      match ax with | ⟨0, _⟩ => rfl | ⟨1, _⟩ => rfl | ⟨2, _⟩ => rfl)]
    exact shapeCast_ab_1ab_apply xr _ 0 jj k

/-- At `(i, k)` the chunk at offset `o` is the fold of `max` of `a[i, o+jj] · x[o+jj, k]` over `jj : Fin 8`. -/
theorem chunkMax_apply (o : ℕ) (ho : o + 8 ≤ 128) (a : FVec Ideal Sa .f32) (x : FVec Ideal Sx .f32) (i : Fin 128) (k : Fin 64) :
    chunkMax o ho a x (ix2 i k)
      = (Finset.univ : Finset (Fin 8)).fold max (FloatOps.ofBits (F := Ideal) .f32 0xFF800000#32)
          fun jj => a (ix2 i ⟨o + jj.val, by omega⟩) * x (ix2 ⟨o + jj.val, by omega⟩ k) := by
  unfold chunkMax
  rw [chunkOfSlices_apply]
  refine Finset.fold_congr fun jj _ => ?_
  rw [slice2_axis1_apply o a _ i jj ⟨o + jj.val, by omega⟩ rfl, slice2_axis0_apply o x _ jj k ⟨o + jj.val, by omega⟩ rfl]

end Cert.GraphMaxPool

end
-- ==== Proof.Spec.lean ====
/-
  Graph max-pooling, as mathematics. For a batch b, a target node i and a feature k,

      out[b,i,k] = Σ_c  max_j ( adj[b,c,i,j] · x[b,j,k] ),

  a sum over the four adjacency channels of a maximum over the 128 source nodes j, on the extended reals. The maximum
  is taken from a starting value `B` (both programs start from the same float word, minus infinity), so it is written
  as a fold of `max` from `B`.

  The only law needed is about the maximum: folding `max` over the source nodes eight at a time, each chunk started
  again from `B`, gives the fold over all of them. It is proved for the nodes below a bound `n` growing by eight, and
  rests on nothing but the order: an upper bound of both parts is an upper bound of the whole.
-/
import Idealize.ShloMosaic.PureOps.Ideal
import Idealize.ShloMosaic.Lib.ValueIdx

noncomputable section

namespace Cert.GraphMaxPool

open Idealize.ShloMosaic Idealize.ShloMosaic.ValueIdx

/-! ## The maximum over the source nodes below a bound -/

section Order
variable {α : Type} [LinearOrder α]

/-- The fold of `max` from `B` over the values `f j` at the source nodes `j < n`. -/
def maxBelow (B : α) (f : Fin 128 → α) (n : ℕ) : α :=
  (Finset.univ.filter fun j : Fin 128 => j.val < n).fold max B f

/-- Over no node at all it is the starting value. -/
theorem maxBelow_zero (B : α) (f : Fin 128 → α) : maxBelow B f 0 = B := by
  unfold maxBelow
  rw [Finset.filter_false_of_mem (fun j _ => Nat.not_lt_zero _), Finset.fold_empty]

/-- One more chunk of eight nodes: the maximum below `o` joined with the chunk's own maximum (started from `B` again) is
    the maximum below `o + 8`. -/
theorem maxBelow_chunk (B : α) (f : Fin 128 → α) (o : ℕ) (ho : o + 8 ≤ 128) :
    max (maxBelow B f o) ((Finset.univ : Finset (Fin 8)).fold max B fun jj => f ⟨o + jj.val, by omega⟩)
      = maxBelow B f (o + 8) := by
  refine eq_of_forall_ge_iff fun c => ?_
  simp only [maxBelow, max_le_iff, Finset.fold_max_le, Finset.mem_filter, Finset.mem_univ, true_and, forall_const]
  constructor
  · rintro ⟨⟨hB, h1⟩, -, h2⟩
    refine ⟨hB, fun j hj => ?_⟩
    by_cases hjo : j.val < o
    · exact h1 j hjo
    · have h := h2 ⟨j.val - o, by omega⟩
      have e : (⟨o + (j.val - o), by omega⟩ : Fin 128) = j := Fin.ext (by show o + (j.val - o) = j.val; omega)
      rwa [e] at h
  · rintro ⟨hB, h⟩
    exact ⟨⟨hB, fun j hj => h j (by omega)⟩, hB, fun jj => h _ (by show o + jj.val < o + 8; omega)⟩

/-- Below 128 it is the maximum over every source node. -/
theorem maxBelow_all (B : α) (f : Fin 128 → α) : maxBelow B f 128 = (Finset.univ : Finset (Fin 128)).fold max B f := by
  unfold maxBelow
  rw [Finset.filter_true_of_mem (fun j _ => j.isLt)]

end Order

/-! ## The layer -/

/-- One channel of one batch: the maximum over the source nodes `j` of `a[i,j] · x[j,k]`, from `B`. -/
def pooled (B : EReal) (a : Fin 128 → Fin 128 → EReal) (x : Fin 128 → Fin 64 → EReal) (i : Fin 128) (k : Fin 64) : EReal :=
  (Finset.univ : Finset (Fin 128)).fold max B fun j => a i j * x j k

/-- The whole layer over `nb` batches as one function of the two arrays: at `(b, i, k)` the four channels' maxima added in
    channel order. (The batches do not interact, so the same definition reads both as the layer on all 64 batches and as the
    layer on the eight batches a grid point stages.) -/
def layer (nb : ℕ) (B : EReal) (x : (⟨3, ![nb, 128, 64]⟩ : Shape).Idx → EReal) (adj : (⟨4, ![nb, 4, 128, 128]⟩ : Shape).Idx → EReal) :
    (⟨3, ![nb, 128, 64]⟩ : Shape).Idx → EReal := fun y =>
  pooled B (fun i j => adj (ix4 (y 0) (0 : Fin 4) i j)) (fun j k => x (ix3 (y 0) j k)) (y 1) (y 2)
    + pooled B (fun i j => adj (ix4 (y 0) (1 : Fin 4) i j)) (fun j k => x (ix3 (y 0) j k)) (y 1) (y 2)
    + pooled B (fun i j => adj (ix4 (y 0) (2 : Fin 4) i j)) (fun j k => x (ix3 (y 0) j k)) (y 1) (y 2)
    + pooled B (fun i j => adj (ix4 (y 0) (3 : Fin 4) i j)) (fun j k => x (ix3 (y 0) j k)) (y 1) (y 2)

/-- The layer at an index written by its coordinates. -/
theorem layer_apply (nb : ℕ) (B : EReal) (x : (⟨3, ![nb, 128, 64]⟩ : Shape).Idx → EReal) (adj : (⟨4, ![nb, 4, 128, 128]⟩ : Shape).Idx → EReal)
    (b : Fin nb) (i : Fin 128) (k : Fin 64) :
    layer nb B x adj (ix3 b i k)
      = pooled B (fun i j => adj (ix4 b (0 : Fin 4) i j)) (fun j k => x (ix3 b j k)) i k
        + pooled B (fun i j => adj (ix4 b (1 : Fin 4) i j)) (fun j k => x (ix3 b j k)) i k
        + pooled B (fun i j => adj (ix4 b (2 : Fin 4) i j)) (fun j k => x (ix3 b j k)) i k
        + pooled B (fun i j => adj (ix4 b (3 : Fin 4) i j)) (fun j k => x (ix3 b j k)) i k := rfl

end Cert.GraphMaxPool

end
-- ==== Proof.Body.lean ====
/-
  What one trip of the kernel's loop over the eight batches of a block stores, in a uniform vocabulary.

  A trip loads one batch's node features `x` ([128, 64]) and its four adjacency matrices `a_c` ([128, 128]). For each channel it
  runs a maximum over the 128 source nodes in 16 chunks of eight: starting from minus infinity, each step joins the running
  maximum with the chunk's own maximum of the products `a_c[i, j] · x[j, k]`. The four channel maxima are added, starting from
  zero, and the sum is stored as that batch's [1, 128, 64] row of the output block.
  The printed body computes exactly this, cut into payloads at places that have nothing to do with the mathematics (a cut can
  fall between a slice and its use); `tripPayloads_eq` says that the payloads composed are the value written here.
-/
import proofs.«103894_j82815559402085_2_alg».proof.Proof.Gen.KernelIdeal.Skeleton
import proofs.«103894_j82815559402085_2_alg».proof.Proof.LibMaxChunk
import proofs.«103894_j82815559402085_2_alg».proof.Proof.Spec

noncomputable section

namespace Cert.GraphMaxPool

open Idealize.ShloMosaic Idealize.ShloMosaic.ValueIdx Cert.KernelIdeal Cert.KernelIdeal.Gen

variable {F : FTy → Type} [FloatOps F]

/-- One step of a channel's running maximum: join with the maximum of the chunk at offset `o`. -/
def stepAt (o : ℕ) (ho : o + 8 ≤ 128) (a : FVec F Sa .f32) (x : FVec F Sx .f32) (acc : FVec F Sx .f32) : FVec F Sx .f32 :=
  maximumf acc (chunkMax o ho a x)

/-- A channel's maximum over all 128 source nodes: sixteen steps from minus infinity. -/
def channelMax (a : FVec F Sa .f32) (x : FVec F Sx .f32) : FVec F Sx .f32 :=
  stepAt 120 (by omega) a x (stepAt 112 (by omega) a x (stepAt 104 (by omega) a x (stepAt 96 (by omega) a x
  (stepAt 88 (by omega) a x (stepAt 80 (by omega) a x (stepAt 72 (by omega) a x (stepAt 64 (by omega) a x
  (stepAt 56 (by omega) a x (stepAt 48 (by omega) a x (stepAt 40 (by omega) a x (stepAt 32 (by omega) a x
  (stepAt 24 (by omega) a x (stepAt 16 (by omega) a x (stepAt 8 (by omega) a x (stepAt 0 (by omega) a x
    (broadcast Sx (Scalar.ofBits .f32 0xFF800000#32)))))))))))))))))

/-- What a trip stores, from the batch's features (as loaded, [1, 128, 64]) and its four adjacency matrices (as loaded,
    [1, 1, 128, 128]): zero plus the four channel maxima, as a [1, 128, 64] row. -/
def tripValue (v4 : Vec F S1x128x64 .f32) (v8 v157 v306 v455 : Vec F S1x1x128x128 .f32) : FVec F S1x128x64 .f32 :=
  shapeCast S1x128x64
    (addf (addf (addf (addf (broadcast Sx (Scalar.ofBits .f32 0x00000000#32))
      (channelMax (shapeCast Sa v8 shapeCasts_S1x1x128x128_S128x128) (shapeCast Sx v4 shapeCasts_S1x128x64_S128x64)))
      (channelMax (shapeCast Sa v157 shapeCasts_S1x1x128x128_S128x128) (shapeCast Sx v4 shapeCasts_S1x128x64_S128x64)))
      (channelMax (shapeCast Sa v306 shapeCasts_S1x1x128x128_S128x128) (shapeCast Sx v4 shapeCasts_S1x128x64_S128x64)))
      (channelMax (shapeCast Sa v455 shapeCasts_S1x1x128x128_S128x128) (shapeCast Sx v4 shapeCasts_S1x128x64_S128x64)))
    shapeCasts_S128x64_S1x128x64

/-- The printed payloads of one trip, composed as the body composes them. -/
def tripPayloads (v4 : Vec F S1x128x64 .f32) (v8 v157 v306 v455 : Vec F S1x1x128x128 .f32) : FVec F S1x128x64 .f32 :=
  let v5 := k0_pay2 v4
  let v9 := k0_pay4 v8
  let v46 := k0_pay5 v4 v8
  let v100 := k0_pay6 v5 v9 v46
  let v154 := k0_pay7 v5 v9 v100
  let v155 := k0_pay8 k0_pay3 v154
  let v158 := k0_pay9 v157
  let v204 := k0_pay10 v5 v157
  let v205 := k0_pay11 v157
  let v258 := k0_pay12 v5 v158 v204 v205
  let v259 := k0_pay13 v158
  let v304 := k0_pay14 v5 v155 v158 v258 v259
  let v307 := k0_pay15 v306
  let v308 : FVec F S128x64 .f32 := k0_pay16
  let v309 := k0_pay17 v306
  let v310 := k0_pay18 v5
  let v362 := k0_pay19 v5 v307 v308 v309 v310
  let v363 := k0_pay20 v307
  let v364 := k0_pay21 v5
  let v416 := k0_pay22 v5 v307 v362 v363 v364
  let v417 := k0_pay23 v307
  let v418 := k0_pay24 v5
  let v453 := k0_pay25 v5 v304 v307 v416 v417 v418
  let v456 := k0_pay26 v455
  let v466 := k0_pay27 v5 v455
  let v468 := k0_pay28 v5
  let v469 := k0_pay29 v455
  let v520 := k0_pay30 v5 v456 v466 v468 v469
  let v522 := k0_pay31 v5
  let v523 := k0_pay32 v456
  let v574 := k0_pay33 v5 v456 v520 v522 v523
  let v576 := k0_pay34 v5
  let v577 := k0_pay35 v456
  k0_pay1 v5 v453 v456 v574 v576 v577

/-- The payloads composed are the trip's value: the same operations in the same order, only cut differently. -/
theorem tripPayloads_eq (v4 : Vec F S1x128x64 .f32) (v8 v157 v306 v455 : Vec F S1x1x128x128 .f32) :
    tripPayloads v4 v8 v157 v306 v455 = tripValue v4 v8 v157 v306 v455 := rfl

/-! ## The trip's value at an index, on the extended reals -/

/-- The float word both programs start every maximum from (minus infinity), read on the extended reals. It is the same word on
    both sides and is never evaluated. -/
abbrev negInfWord : EReal := Ideal.ofBits .f32 0xFF800000#32

/-- One step at `(i, k)`: if the running value is the maximum over the source nodes below `o`, the step's is the maximum below `o + 8`. -/
theorem stepAt_apply (o : ℕ) (ho : o + 8 ≤ 128) (a : FVec Ideal Sa .f32) (x : FVec Ideal Sx .f32) (acc : FVec Ideal Sx .f32)
    (i : Fin 128) (k : Fin 64) (h : acc (ix2 i k) = maxBelow negInfWord (fun j => a (ix2 i j) * x (ix2 j k)) o) :
    stepAt o ho a x acc (ix2 i k) = maxBelow negInfWord (fun j => a (ix2 i j) * x (ix2 j k)) (o + 8) := by
  unfold stepAt
  rw [maximumf_apply, h, chunkMax_apply]
  exact maxBelow_chunk negInfWord (fun j => a (ix2 i j) * x (ix2 j k)) o ho

/-- A channel's sixteen steps at `(i, k)`: the maximum over all 128 source nodes of `a[i, j] · x[j, k]`. -/
theorem channelMax_apply (a : FVec Ideal Sa .f32) (x : FVec Ideal Sx .f32) (i : Fin 128) (k : Fin 64) :
    channelMax a x (ix2 i k) = pooled negInfWord (fun i j => a (ix2 i j)) (fun j k => x (ix2 j k)) i k := by
  unfold channelMax pooled
  rw [← maxBelow_all]
  exact stepAt_apply 120 _ a x _ i k (stepAt_apply 112 _ a x _ i k (stepAt_apply 104 _ a x _ i k (stepAt_apply 96 _ a x _ i k
    (stepAt_apply 88 _ a x _ i k (stepAt_apply 80 _ a x _ i k (stepAt_apply 72 _ a x _ i k (stepAt_apply 64 _ a x _ i k
    (stepAt_apply 56 _ a x _ i k (stepAt_apply 48 _ a x _ i k (stepAt_apply 40 _ a x _ i k (stepAt_apply 32 _ a x _ i k
    (stepAt_apply 24 _ a x _ i k (stepAt_apply 16 _ a x _ i k (stepAt_apply 8 _ a x _ i k (stepAt_apply 0 _ a x _ i k
      (maxBelow_zero negInfWord _).symm)))))))))))))))

/-- A loaded [1, 1, 128, 128] adjacency matrix viewed as [128, 128] reads `(i, j)` at `(0, 0, i, j)`. -/
theorem adjView_apply (v : Vec Ideal S1x1x128x128 .f32) (i j : Fin 128) :
    shapeCast Sa v shapeCasts_S1x1x128x128_S128x128 (ix2 i j) = v (ix4 (0 : Fin 1) (0 : Fin 1) i j) :=
  shapeCast_apply v _ _ _ (by
    rw [Shape.rowMajor_val_four, Shape.rowMajor_val_two]
    show ((0 * 1 + 0) * 128 + i.val) * 128 + j.val = i.val * 128 + j.val
    omega)

/-- What a trip stores, at `(u, i, k)` of its [1, 128, 64] row: the four channels' maxima over the source nodes, added in
    channel order (the zero the sum starts from adds nothing). -/
theorem tripValue_apply (v4 : Vec Ideal S1x128x64 .f32) (v8 v157 v306 v455 : Vec Ideal S1x1x128x128 .f32)
    (u : Fin 1) (i : Fin 128) (k : Fin 64) :
    tripValue v4 v8 v157 v306 v455 (ix3 u i k)
      = pooled negInfWord (fun i j => v8 (ix4 (0 : Fin 1) (0 : Fin 1) i j)) (fun j k => v4 (ix3 (0 : Fin 1) j k)) i k
        + pooled negInfWord (fun i j => v157 (ix4 (0 : Fin 1) (0 : Fin 1) i j)) (fun j k => v4 (ix3 (0 : Fin 1) j k)) i k
        + pooled negInfWord (fun i j => v306 (ix4 (0 : Fin 1) (0 : Fin 1) i j)) (fun j k => v4 (ix3 (0 : Fin 1) j k)) i k
        + pooled negInfWord (fun i j => v455 (ix4 (0 : Fin 1) (0 : Fin 1) i j)) (fun j k => v4 (ix3 (0 : Fin 1) j k)) i k := by
  unfold tripValue
  rw [shapeCast_ab_1ab_apply, addf_apply, addf_apply, addf_apply, addf_apply, broadcast_apply,
    channelMax_apply, channelMax_apply, channelMax_apply, channelMax_apply]
  have hx : ∀ (j : Fin 128) (k : Fin 64), shapeCast Sx v4 shapeCasts_S1x128x64_S128x64 (ix2 j k) = v4 (ix3 (0 : Fin 1) j k) :=
    fun j k => shapeCast_1ab_ab_apply v4 _ j k
  have ha : ∀ v : Vec Ideal S1x1x128x128 .f32,
      (fun (i j : Fin 128) => shapeCast Sa v shapeCasts_S1x1x128x128_S128x128 (ix2 i j)) = fun i j => v (ix4 (0 : Fin 1) (0 : Fin 1) i j) :=
    fun v => funext fun i => funext fun j => adjView_apply v i j
  simp only [hx]
  rw [ha v8, ha v157, ha v306, ha v455]
  rw [show Scalar.ofBits (F := Ideal) .f32 0x00000000#32 = 0 from Ideal.ofBits_zero_f32, zero_add]

end Cert.GraphMaxPool

end
-- ==== Proof.KernelValue.lean ====
/-
  The idealized kernel's result array as one function of its two argument arrays.

  The kernel runs on a grid of eight points; point t stages the eight batches 8t … 8t+7 of the node features and of the
  adjacency matrices, and its body loops over those eight batches: trip k reads batch k of the staged blocks and stores the
  layer's value for that batch as row k of the staged output block. So
    · each trip's one store restricts ONE function of the block index, the layer on the eight staged batches;
    · the eight stores tile the block, so the block the body leaves is that function;
    · the layer does not mix batches, so the layer on the staged batches at (b, i, k) is the layer on all 64 batches at (8t + b, i, k);
    · the eight blocks tile the result array, which therefore ends holding the layer of the two argument arrays.
-/
import proofs.«103894_j82815559402085_2_alg».proof.Proof.Gen.KernelIdeal.Value
import proofs.«103894_j82815559402085_2_alg».proof.Proof.Body

set_option maxRecDepth 16384

noncomputable section

namespace Cert.GraphMaxPool

open Idealize.ShloMosaic Idealize.ShloMosaic.TcCoe Idealize.ShloMosaic.ValueIdx Idealize.SL.Sem
open Cert.KernelIdeal Cert.KernelIdeal.Gen
open Idealize.ShloMosaic.Pipeline (Dat)

/-! ## One trip's store -/

section Trip
variable {F : FTy → Type} [FloatOps F]

/-- Trip `k` makes one store: at row `k` of the output block, the trip's value of the five blocks it loads (row `k` of the
    features, and channels 0 to 3 of row `k` of the adjacency block). -/
theorem tripL_eq (𝒱 : Variants) (c : Dev nD) (bd : Option 𝒱.V) (i : grid0.Coords)
    (arg1 : Memref sig .tc .vmem S8x4x128x128 .f32) (harg1 : arg1.IsWhole) (arg2 : Memref sig .tc .vmem S8x128x64 .f32) (harg2 : arg2.IsWhole)
    (arg3 : Memref sig .tc .vmem S8x128x64 .f32) (harg3 : arg3.IsWhole)
    (X_arg1 : BufTy.Contents (Elt F) arg1.view.ty) (X_arg2 : BufTy.Contents (Elt F) arg2.view.ty) (k : Fin k0_t1_loop.trips) :
    tripL_k0_t1 (F := F) 𝒱 c bd i arg1 harg1 arg2 harg2 arg3 harg3 X_arg1 X_arg2 k
      = [(⟨Rect.unit (s := S8x128x64) (k0_off1 k) S1x128x64.size (k0_off1_inb k),
          tripValue
            (View.readAt (Elt F) arg2.view (Rect.unit (s := S8x128x64) (k0_off1 k) S1x128x64.size (k0_off1_inb k)).toLoadRect X_arg2)
            (View.readAt (Elt F) arg1.view (Rect.unit (s := S8x4x128x128) (k0_off2 k) S1x1x128x128.size (k0_off2_inb k)).toLoadRect X_arg1)
            (View.readAt (Elt F) arg1.view (Rect.unit (s := S8x4x128x128) (k0_off3 k) S1x1x128x128.size (k0_off3_inb k)).toLoadRect X_arg1)
            (View.readAt (Elt F) arg1.view (Rect.unit (s := S8x4x128x128) (k0_off4 k) S1x1x128x128.size (k0_off4_inb k)).toLoadRect X_arg1)
            (View.readAt (Elt F) arg1.view (Rect.unit (s := S8x4x128x128) (k0_off5 k) S1x1x128x128.size (k0_off5_inb k)).toLoadRect X_arg1)⟩
          : View.Piece (Elt F) S8x128x64 .f32)] := by
  unfold tripL_k0_t1 trip_k0_t1
  rfl

end Trip

/-! ## Each store restricts the layer on the staged batches -/

/-- The layer on the eight staged batches, from the staged adjacency block `x0` and the staged feature block `x1`. -/
abbrev blockLayer (x0 : Vec Ideal S8x4x128x128 .f32) (x1 : Vec Ideal S8x128x64 .f32) : S8x128x64.Idx → EReal :=
  layer 8 negInfWord x1 x0

/-- A [1, 1, 128, 128] load at offsets `(b, cc, 0, 0)` of a staging buffer holding `x0` reads, at `(0, 0, i, j)`, `x0[b, cc, i, j]`. -/
theorem load_adj (arg1 : Memref sig .tc .vmem S8x4x128x128 .f32) (harg1 : arg1.IsWhole) (x0 : Vec Ideal S8x4x128x128 .f32)
    (off : Fin 4 → ℕ) (inb : ∀ a, off a + S1x1x128x128.size a ≤ S8x4x128x128.size a) (b : Fin 8) (cc : Fin 4)
    (hoff : off = ![b.val, cc.val, 0, 0]) (i j : Fin 128) :
    View.readAt (Elt Ideal) arg1.view (Rect.unit (s := S8x4x128x128) off S1x1x128x128.size inb).toLoadRect (harg1.unread x0)
        (ix4 (0 : Fin 1) (0 : Fin 1) i j) = x0 (ix4 b cc i j) := by
  subst hoff
  rw [View.readAt_eq_ld, harg1.read_unread]
  refine congrArg x0 (funext fun a => Fin.ext ?_)
  match a with
  | ⟨0, _⟩ => show b.val + 1 * 0 = b.val; omega
  | ⟨1, _⟩ => show cc.val + 1 * 0 = cc.val; omega
  | ⟨2, _⟩ => show 0 + 1 * i.val = i.val; omega
  | ⟨3, _⟩ => show 0 + 1 * j.val = j.val; omega

/-- A [1, 128, 64] load at offsets `(b, 0, 0)` of a staging buffer holding `x1` reads, at `(0, j, q)`, `x1[b, j, q]`. -/
theorem load_feat (arg2 : Memref sig .tc .vmem S8x128x64 .f32) (harg2 : arg2.IsWhole) (x1 : Vec Ideal S8x128x64 .f32)
    (off : Fin 3 → ℕ) (inb : ∀ a, off a + S1x128x64.size a ≤ S8x128x64.size a) (b : Fin 8)
    (hoff : off = ![b.val, 0, 0]) (j : Fin 128) (q : Fin 64) :
    View.readAt (Elt Ideal) arg2.view (Rect.unit (s := S8x128x64) off S1x128x64.size inb).toLoadRect (harg2.unread x1)
        (ix3 (0 : Fin 1) j q) = x1 (ix3 b j q) := by
  subst hoff
  rw [View.readAt_eq_ld, harg2.read_unread]
  refine congrArg x1 (funext fun a => Fin.ext ?_)
  match a with
  | ⟨0, _⟩ => show b.val + 1 * 0 = b.val; omega
  | ⟨1, _⟩ => show 0 + 1 * j.val = j.val; omega
  | ⟨2, _⟩ => show 0 + 1 * q.val = q.val; omega

/-- Trip `k`'s store is the layer on the staged batches, restricted to row `k` of the block. -/
theorem trip_restricts (𝒱 : Variants) (c : Dev nD) (bd : Option 𝒱.V) (i : grid0.Coords)
    (arg1 : Memref sig .tc .vmem S8x4x128x128 .f32) (harg1 : arg1.IsWhole) (arg2 : Memref sig .tc .vmem S8x128x64 .f32) (harg2 : arg2.IsWhole)
    (arg3 : Memref sig .tc .vmem S8x128x64 .f32) (harg3 : arg3.IsWhole)
    (x0 : Vec Ideal S8x4x128x128 .f32) (x1 : Vec Ideal S8x128x64 .f32) (k : Fin k0_t1_loop.trips) :
    ∀ p ∈ tripL_k0_t1 (F := Ideal) 𝒱 c bd i arg1 harg1 arg2 harg2 arg3 harg3 (harg1.unread x0) (harg2.unread x1) k,
      ∀ z : p.1.shape.Idx, p.2 z = blockLayer x0 x1 (p.1.emb z) := by
  intro p hp
  rw [tripL_eq, List.mem_singleton] at hp
  subst hp
  intro z
  have hk : k.val < 8 := Nat.lt_of_lt_of_le k.isLt k0_t1_abs.2.1
  obtain ⟨u, i', kk, rfl⟩ : ∃ (u : Fin 1) (i' : Fin 128) (kk : Fin 64), z = ix3 u i' kk := ⟨z 0, z 1, z 2, eq_ix3 z⟩
  have hu : u.val = 0 := by omega
  have e : (Rect.unit (s := S8x128x64) (k0_off1 k) S1x128x64.size (k0_off1_inb k)).emb (ix3 u i' kk) = ix3 (⟨k.val, hk⟩ : Fin 8) i' kk := by
    funext a; apply Fin.ext
    match a with
    | ⟨0, _⟩ => show (k0_off1 k) 0 + 1 * u.val = k.val; rw [k0_off1_eq k]; show k.val + 1 * u.val = k.val; omega
    | ⟨1, _⟩ => show (k0_off1 k) 1 + 1 * i'.val = i'.val; rw [k0_off1_eq k]; show 0 + 1 * i'.val = i'.val; omega
    | ⟨2, _⟩ => show (k0_off1 k) 2 + 1 * kk.val = kk.val; rw [k0_off1_eq k]; show 0 + 1 * kk.val = kk.val; omega
  show tripValue (F := Ideal) _ _ _ _ _ (ix3 u i' kk) = layer 8 negInfWord x1 x0 ((Rect.unit (s := S8x128x64) (k0_off1 k) S1x128x64.size (k0_off1_inb k)).emb (ix3 u i' kk))
  rw [e, layer_apply, tripValue_apply]
  have hx := load_feat arg2 harg2 x1 (k0_off1 k) (k0_off1_inb k) ⟨k.val, hk⟩ (k0_off1_eq k)
  have h0 := load_adj arg1 harg1 x0 (k0_off2 k) (k0_off2_inb k) ⟨k.val, hk⟩ 0 (k0_off2_eq k)
  have h1 := load_adj arg1 harg1 x0 (k0_off3 k) (k0_off3_inb k) ⟨k.val, hk⟩ 1 (k0_off3_eq k)
  have h2 := load_adj arg1 harg1 x0 (k0_off4 k) (k0_off4_inb k) ⟨k.val, hk⟩ 2 (k0_off4_eq k)
  have h3 := load_adj arg1 harg1 x0 (k0_off5 k) (k0_off5_inb k) ⟨k.val, hk⟩ 3 (k0_off5_eq k)
  simp only [hx, h0, h1, h2, h3]

/-! ## The block the body leaves -/

/-- Every store of the trips before `n` restricts the layer on the staged batches. -/
theorem pieces_restrict (𝒱 : Variants) (c : Dev nD) (bd : Option 𝒱.V) (i : grid0.Coords)
    (arg1 : Memref sig .tc .vmem S8x4x128x128 .f32) (harg1 : arg1.IsWhole) (arg2 : Memref sig .tc .vmem S8x128x64 .f32) (harg2 : arg2.IsWhole)
    (arg3 : Memref sig .tc .vmem S8x128x64 .f32) (harg3 : arg3.IsWhole)
    (x0 : Vec Ideal S8x4x128x128 .f32) (x1 : Vec Ideal S8x128x64 .f32) (n : ℕ) :
    ∀ p ∈ pb_k0_t1 (F := Ideal) 𝒱 c bd i arg1 harg1 arg2 harg2 arg3 harg3 (harg1.unread x0) (harg2.unread x1) n,
      ∀ z : p.1.shape.Idx, p.2 z = blockLayer x0 x1 (p.1.emb z) := by
  induction n with
  | zero =>
    intro p hp
    rw [pb_k0_t1.eq_1] at hp
    exact absurd hp List.not_mem_nil
  | succ n ih =>
    intro p hp
    rw [pb_k0_t1.eq_2] at hp
    unfold pb_k0_t1Step at hp
    by_cases h : n < k0_t1_loop.trips
    · rw [dif_pos h, List.mem_append] at hp
      rcases hp with hp | hp
      · exact trip_restricts 𝒱 c bd i arg1 harg1 arg2 harg2 arg3 harg3 x0 x1 ⟨n, h⟩ p hp
      · exact ih p hp
    · rw [dif_neg h] at hp
      exact ih p hp

/-- The eight stores tile the output block, and each restricts the layer on the staged batches: the block the body leaves is that
    layer of the two staged input blocks. -/
theorem block_eq (c : Dev nD) (i : grid0.Coords)
    (arg1 : Memref sig .tc .vmem S8x4x128x128 .f32) (harg1 : arg1.IsWhole) (arg2 : Memref sig .tc .vmem S8x128x64 .f32) (harg2 : arg2.IsWhole)
    (arg3 : Memref sig .tc .vmem S8x128x64 .f32) (harg3 : arg3.IsWhole)
    (x0 : Vec Ideal S8x4x128x128 .f32) (x1 : Vec Ideal S8x128x64 .f32) :
    out0_A_2 (F := Ideal) c i arg1 harg1 arg2 harg2 arg3 harg3 x0 x1 = blockLayer x0 x1 := by
  unfold out0_A_2
  rw [View.read_writes_eq_canon _ _ _ (cover0_A_2 c i arg1 harg1 arg2 harg2 arg3 harg3 x0 x1)]
  funext y
  refine View.canon_apply_of_pieces (blockLayer x0 x1) _ ?_ y (cover0_A_2 c i arg1 harg1 arg2 harg2 arg3 harg3 x0 x1 y)
  unfold kernelRun0_A
  exact pieces_restrict Variants.none c none i arg1 harg1 arg2 harg2 arg3 harg3 x0 x1 _

/-! ## From blocks to the array -/

variable (m : (ℓ : Loc nD τ sig) → Buf (Elt Ideal) ℓ) (ρ : Dev nD → PrngReg)

/-- The three block index maps, decided over the grid: point `t` stages block `t` along the batch axis of each array, and block 0
    along every other axis. -/
theorem index_facts : ∀ t : Fin cfg0.N,
    win0_2.index t (0 : Fin 3) = t.val ∧ win0_2.index t (1 : Fin 3) = 0 ∧ win0_2.index t (2 : Fin 3) = 0
    ∧ win0_1.index t (0 : Fin 3) = t.val ∧ win0_1.index t (1 : Fin 3) = 0 ∧ win0_1.index t (2 : Fin 3) = 0
    ∧ win0_0.index t (0 : Fin 4) = t.val ∧ win0_0.index t (1 : Fin 4) = 0 ∧ win0_0.index t (2 : Fin 4) = 0
    ∧ win0_0.index t (3 : Fin 4) = 0 ∧ t.val < 8 :=
  (by decide +kernel : ∀ t : Fin grid0.N, _)

/-- What point `t` writes back is block `t` of the layer of the two argument arrays: the layer does not mix batches, and batch `b`
    of the staged blocks is batch `8t + b` of the arrays. -/
theorem flushed_eq (c : Dev nD) (t : Fin cfg0.N) :
    (dats m 0 c).flushed 2 t
      = ((cfg0.win 2).blk t).view.read (Elt Ideal) (layer 64 negInfWord (V m c main_arg0) (V m c main_arg1)) := by
  rw [Cert.KernelIdeal.Value.flushed2_A, block_eq]
  obtain ⟨e20, e21, e22, e10, e11, e12, e00, e01, e02, e03, ht⟩ := index_facts t
  funext y
  obtain ⟨b, i, k, rfl⟩ : ∃ (b : Fin 8) (i : Fin 128) (k : Fin 64), y = ix3 b i k := ⟨y 0, y 1, y 2, eq_ix3 y⟩
  have hb : 8 * t.val + b.val < 64 := by omega
  have eo : ((cfg0.win 2).blk t).view.emb (ix3 b i k) = ix3 (⟨8 * t.val + b.val, hb⟩ : Fin 64) i k := by
    funext a; apply Fin.ext
    match a with
    | ⟨0, _⟩ => show win0_2.index t (0 : Fin 3) * 8 + 1 * b.val = 8 * t.val + b.val; omega
    | ⟨1, _⟩ => show win0_2.index t (1 : Fin 3) * 128 + 1 * i.val = i.val; omega
    | ⟨2, _⟩ => show win0_2.index t (2 : Fin 3) * 64 + 1 * k.val = k.val; omega
  show layer 8 negInfWord (iblk m c 1 t) (iblk m c 0 t) (ix3 b i k)
    = layer 64 negInfWord (V m c main_arg0) (V m c main_arg1) (((cfg0.win 2).blk t).view.emb (ix3 b i k))
  rw [eo, layer_apply, layer_apply]
  have hx : ∀ (j : Fin 128) (q : Fin 64), iblk m c 1 t (ix3 b j q) = V m c main_arg0 (ix3 (⟨8 * t.val + b.val, hb⟩ : Fin 64) j q) := by
    intro j q
    show V m c main_arg0 (((cfg0.win 1).blk t).view.emb (ix3 b j q)) = _
    refine congrArg (V m c main_arg0) (funext fun a => Fin.ext ?_)
    match a with
    | ⟨0, _⟩ => show win0_1.index t (0 : Fin 3) * 8 + 1 * b.val = 8 * t.val + b.val; omega
    | ⟨1, _⟩ => show win0_1.index t (1 : Fin 3) * 128 + 1 * j.val = j.val; omega
    | ⟨2, _⟩ => show win0_1.index t (2 : Fin 3) * 64 + 1 * q.val = q.val; omega
  have ha : ∀ (cc : Fin 4) (i' j : Fin 128), iblk m c 0 t (ix4 b cc i' j) = V m c main_arg1 (ix4 (⟨8 * t.val + b.val, hb⟩ : Fin 64) cc i' j) := by
    intro cc i' j
    show V m c main_arg1 (((cfg0.win 0).blk t).view.emb (ix4 b cc i' j)) = _
    refine congrArg (V m c main_arg1) (funext fun a => Fin.ext ?_)
    match a with
    | ⟨0, _⟩ => show win0_0.index t (0 : Fin 4) * 8 + 1 * b.val = 8 * t.val + b.val; omega
    | ⟨1, _⟩ => show win0_0.index t (1 : Fin 4) * 4 + 1 * cc.val = cc.val; omega
    | ⟨2, _⟩ => show win0_0.index t (2 : Fin 4) * 128 + 1 * i'.val = i'.val; omega
    | ⟨3, _⟩ => show win0_0.index t (3 : Fin 4) * 128 + 1 * j.val = j.val; omega
  simp only [hx, ha]

/-- An index of the result array is in point `t`'s block iff each coordinate is in the block's range on its axis. -/
theorem mem_block (t : Fin cfg0.N) (i : S64x128x64.Idx) :
    i ∈ ((cfg0.win 2).blk t).view.set ↔ ∀ a : Fin 3, win0_2.index t a * S8x128x64.size a ≤ (i a).val
      ∧ (i a).val < win0_2.index t a * S8x128x64.size a + S8x128x64.size a := by
  show i ∈ ((View.whole main_v0).slice (win0_2.rect t)).set ↔ _
  rw [View.set_slice_whole, Rect.mem_set_unit]
  exact Iff.rfl

/-- The eight blocks tile the result array: batch `b` lies in the block of point `b / 8`. -/
theorem covered (i : S64x128x64.Idx) : ∃ t : Fin cfg0.N, (cfg0.win 2).flush t = true ∧ i ∈ ((cfg0.win 2).blk t).view.set := by
  have h0 : (i 0).val < 64 := (i 0).isLt
  have h1 : (i 1).val < 128 := (i 1).isLt
  have h2 : (i 2).val < 64 := (i 2).isLt
  refine ⟨⟨(i 0).val / 8, by show (i 0).val / 8 < grid0.N; rw [N_0]; omega⟩, flush0_2 _, ?_⟩
  rw [mem_block]
  obtain ⟨e20, e21, e22, -⟩ := index_facts ⟨(i 0).val / 8, by show (i 0).val / 8 < grid0.N; rw [N_0]; omega⟩
  have e20' : win0_2.index ⟨(i 0).val / 8, by show (i 0).val / 8 < grid0.N; rw [N_0]; omega⟩ (0 : Fin 3) = (i 0).val / 8 := e20
  intro a
  match a with
  | ⟨0, _⟩ =>
    show win0_2.index ⟨(i 0).val / 8, _⟩ (0 : Fin 3) * 8 ≤ (i 0).val ∧ (i 0).val < win0_2.index ⟨(i 0).val / 8, _⟩ (0 : Fin 3) * 8 + 8
    omega
  | ⟨1, _⟩ =>
    show win0_2.index ⟨(i 0).val / 8, _⟩ (1 : Fin 3) * 128 ≤ (i 1).val ∧ (i 1).val < win0_2.index ⟨(i 0).val / 8, _⟩ (1 : Fin 3) * 128 + 128
    omega
  | ⟨2, _⟩ =>
    show win0_2.index ⟨(i 0).val / 8, _⟩ (2 : Fin 3) * 64 ≤ (i 2).val ∧ (i 2).val < win0_2.index ⟨(i 0).val / 8, _⟩ (2 : Fin 3) * 64 + 64
    omega

/-- The result array after the run: the layer of the two argument arrays. -/
theorem final (c : Dev nD) :
    (dats m 0 c).arrAt 2 cfg0.N = layer 64 negInfWord (m ((c : Thread nD τ).loc main_arg0)) (m ((c : Thread nD τ).loc main_arg1)) :=
  (dats m 0 c).arrAt_eq_of_cover 2 _ (fun t _ => flushed_eq m c t) covered

/-- The idealized kernel's run: it ends with the result array at the layer of its arguments, the arguments unchanged. -/
theorem run : θ_run defs (onTc (τ := τ) (main (F := Ideal))) ⟨m, fun _ => 0, ρ⟩ fun r => ∀ c : Dev nD,
      r.2.mem ((c : Thread nD τ).loc main_v0)
        = layer 64 negInfWord (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.GraphMaxPool

end
-- ==== Proof.RefValue.lean ====
/-
  The reference's result array as the same function of the two argument arrays.

  The reference computes, channel by channel, the [64, 128, 128, 64] array of products `adj[b, c, i, j] · x[b, j, k]` (the
  channel's adjacency matrices spread along the feature axis, the features spread along the target-node axis), takes its
  maximum over the source-node axis `j` starting from minus infinity, and adds the four channels' results in channel order.
  Read at an index `(b, i, k)` this is the layer of Spec.lean, literally: each channel a fold of `max` over `j : Fin 128`.
-/
import proofs.«103894_j82815559402085_2_alg».proof.Proof.Gen.ReferenceIdeal.Read
import proofs.«103894_j82815559402085_2_alg».proof.Proof.Spec
import Idealize.ShloMosaic.PureOps.Ideal.Laws
import Idealize.ShloMosaic.Lib.ValueIdx

noncomputable section

namespace Cert.GraphMaxPool.Ref

open Idealize.ShloMosaic Idealize.ShloMosaic.ValueIdx Cert.GraphMaxPool
open Cert.ReferenceIdeal Cert.ReferenceIdeal.Gen Cert.ReferenceIdeal.Read

/-- The host's maximum over the source-node axis of a [64, 128, 128, 64] array, read at `(b, i, k)`: the fold of `max`, from the
    initial value's one element, over `j : Fin 128` of the array at `(b, i, j, k)`. -/
theorem hostMax_apply (P : FVec Ideal S64x128x128x64 .f32) (init : FVec Ideal S_ .f32)
    (h' : S64x128x128x64.ReducesTo [2] S64x128x64) (h : S64x128x128x64.Reduces [2] S64x128x64) (hu : 0 < S_.numel)
    (b : Fin 64) (i : Fin 128) (k : Fin 64) :
    Host.reduce (FloatOps.maximumf (F := Ideal) (φ := .f32)) P init h' hu (ix3 b i k)
      = (Finset.univ : Finset (Fin 128)).fold max (init (Shape.Idx.first hu)) fun j => P (ix4 b i j k) := by
  refine (Host.reduce_eq_fold_single (FloatOps.maximumf (F := Ideal) (φ := .f32)) P init h' h hu (ix3 b i k)).trans ?_
  refine Finset.fold_congr fun j _ => ?_
  show P (h.lift (ix3 b i k) j) = P (ix4 b i j k)
  refine congrArg P (funext fun a => ?_)
  match a with | ⟨0, _⟩ => rfl | ⟨1, _⟩ => rfl | ⟨2, _⟩ => rfl | ⟨3, _⟩ => rfl

/-- Channel 0's products at `(b, i, j, k)`: `adj[b, 0, i, j] · x[b, j, k]` (a slice of the channel, a reshape and three spreads
    along missing axes, read back to the two arrays). -/
theorem prod0_apply (x0 : (⟨S64x128x64, .f32⟩ : BufTy).Contents (Elt Ideal)) (x1 : (⟨S64x4x128x128, .f32⟩ : BufTy).Contents (Elt Ideal))
    (b : Fin 64) (i j : Fin 128) (k : Fin 64) :
    val_main_v6 (F := Ideal) x0 x1 (ix4 b i j k) = x1 (ix4 b (0 : Fin 4) i j) * x0 (ix3 b j k) := by
  rw [val_main_v6_apply, val_main_v4_apply, val_main_v2_apply, val_main_v1_apply, val_main_v0_apply, val_main_v5_apply, val_main_v3_apply]
  have ea : idx_main_v0 (idx_main_v1 (idx_main_v2 (idx_main_v4 (ix4 b i j k)))) = ix4 b (0 : Fin 4) i j := by
    have hb := b.isLt; have hi := i.isLt; have hj := j.isLt
    funext a; apply Fin.ext
    match a with
    | ⟨0, _⟩ => show ((b.val * 128 + i.val) * 128 + j.val) / 16384 = b.val; omega
    | ⟨1, _⟩ => rfl
    | ⟨2, _⟩ => show ((b.val * 128 + i.val) * 128 + j.val) / 128 % 128 = i.val; omega
    | ⟨3, _⟩ => show ((b.val * 128 + i.val) * 128 + j.val) % 128 = j.val; omega
  have ex : idx_main_v3 (idx_main_v5 (ix4 b i j k)) = ix3 b j k := by
    funext a; match a with | ⟨0, _⟩ => rfl | ⟨1, _⟩ => rfl | ⟨2, _⟩ => rfl
  rw [ea, ex]
  rfl

/-- Channel 1's products at `(b, i, j, k)`: `adj[b, 1, i, j] · x[b, j, k]` (a slice of the channel, a reshape and three spreads
    along missing axes, read back to the two arrays). -/
theorem prod1_apply (x0 : (⟨S64x128x64, .f32⟩ : BufTy).Contents (Elt Ideal)) (x1 : (⟨S64x4x128x128, .f32⟩ : BufTy).Contents (Elt Ideal))
    (b : Fin 64) (i j : Fin 128) (k : Fin 64) :
    val_main_v14 (F := Ideal) x0 x1 (ix4 b i j k) = x1 (ix4 b (1 : Fin 4) i j) * x0 (ix3 b j k) := by
  rw [val_main_v14_apply, val_main_v12_apply, val_main_v10_apply, val_main_v9_apply, val_main_v8_apply, val_main_v13_apply, val_main_v11_apply]
  have ea : idx_main_v8 (idx_main_v9 (idx_main_v10 (idx_main_v12 (ix4 b i j k)))) = ix4 b (1 : Fin 4) i j := by
    have hb := b.isLt; have hi := i.isLt; have hj := j.isLt
    funext a; apply Fin.ext
    match a with
    | ⟨0, _⟩ => show ((b.val * 128 + i.val) * 128 + j.val) / 16384 = b.val; omega
    | ⟨1, _⟩ => rfl
    | ⟨2, _⟩ => show ((b.val * 128 + i.val) * 128 + j.val) / 128 % 128 = i.val; omega
    | ⟨3, _⟩ => show ((b.val * 128 + i.val) * 128 + j.val) % 128 = j.val; omega
  have ex : idx_main_v11 (idx_main_v13 (ix4 b i j k)) = ix3 b j k := by
    funext a; match a with | ⟨0, _⟩ => rfl | ⟨1, _⟩ => rfl | ⟨2, _⟩ => rfl
  rw [ea, ex]
  rfl

/-- Channel 2's products at `(b, i, j, k)`: `adj[b, 2, i, j] · x[b, j, k]` (a slice of the channel, a reshape and three spreads
    along missing axes, read back to the two arrays). -/
theorem prod2_apply (x0 : (⟨S64x128x64, .f32⟩ : BufTy).Contents (Elt Ideal)) (x1 : (⟨S64x4x128x128, .f32⟩ : BufTy).Contents (Elt Ideal))
    (b : Fin 64) (i j : Fin 128) (k : Fin 64) :
    val_main_v23 (F := Ideal) x0 x1 (ix4 b i j k) = x1 (ix4 b (2 : Fin 4) i j) * x0 (ix3 b j k) := by
  rw [val_main_v23_apply, val_main_v21_apply, val_main_v19_apply, val_main_v18_apply, val_main_v17_apply, val_main_v22_apply, val_main_v20_apply]
  have ea : idx_main_v17 (idx_main_v18 (idx_main_v19 (idx_main_v21 (ix4 b i j k)))) = ix4 b (2 : Fin 4) i j := by
    have hb := b.isLt; have hi := i.isLt; have hj := j.isLt
    funext a; apply Fin.ext
    match a with
    | ⟨0, _⟩ => show ((b.val * 128 + i.val) * 128 + j.val) / 16384 = b.val; omega
    | ⟨1, _⟩ => rfl
    | ⟨2, _⟩ => show ((b.val * 128 + i.val) * 128 + j.val) / 128 % 128 = i.val; omega
    | ⟨3, _⟩ => show ((b.val * 128 + i.val) * 128 + j.val) % 128 = j.val; omega
  have ex : idx_main_v20 (idx_main_v22 (ix4 b i j k)) = ix3 b j k := by
    funext a; match a with | ⟨0, _⟩ => rfl | ⟨1, _⟩ => rfl | ⟨2, _⟩ => rfl
  rw [ea, ex]
  rfl

/-- Channel 3's products at `(b, i, j, k)`: `adj[b, 3, i, j] · x[b, j, k]` (a slice of the channel, a reshape and three spreads
    along missing axes, read back to the two arrays). -/
theorem prod3_apply (x0 : (⟨S64x128x64, .f32⟩ : BufTy).Contents (Elt Ideal)) (x1 : (⟨S64x4x128x128, .f32⟩ : BufTy).Contents (Elt Ideal))
    (b : Fin 64) (i j : Fin 128) (k : Fin 64) :
    val_main_v32 (F := Ideal) x0 x1 (ix4 b i j k) = x1 (ix4 b (3 : Fin 4) i j) * x0 (ix3 b j k) := by
  rw [val_main_v32_apply, val_main_v30_apply, val_main_v28_apply, val_main_v27_apply, val_main_v26_apply, val_main_v31_apply, val_main_v29_apply]
  have ea : idx_main_v26 (idx_main_v27 (idx_main_v28 (idx_main_v30 (ix4 b i j k)))) = ix4 b (3 : Fin 4) i j := by
    have hb := b.isLt; have hi := i.isLt; have hj := j.isLt
    funext a; apply Fin.ext
    match a with
    | ⟨0, _⟩ => show ((b.val * 128 + i.val) * 128 + j.val) / 16384 = b.val; omega
    | ⟨1, _⟩ => rfl
    | ⟨2, _⟩ => show ((b.val * 128 + i.val) * 128 + j.val) / 128 % 128 = i.val; omega
    | ⟨3, _⟩ => show ((b.val * 128 + i.val) * 128 + j.val) % 128 = j.val; omega
  have ex : idx_main_v29 (idx_main_v31 (ix4 b i j k)) = ix3 b j k := by
    funext a; match a with | ⟨0, _⟩ => rfl | ⟨1, _⟩ => rfl | ⟨2, _⟩ => rfl
  rw [ea, ex]
  rfl

/-- The reference's last stage is the layer of the two argument arrays. -/
theorem ref_eq (x0 : (⟨S64x128x64, .f32⟩ : BufTy).Contents (Elt Ideal)) (x1 : (⟨S64x4x128x128, .f32⟩ : BufTy).Contents (Elt Ideal)) :
    val_main_v34 (F := Ideal) x0 x1 = layer 64 (Ideal.ofBits .f32 0xFF800000#32) x0 x1 := by
  funext y
  obtain ⟨b, i, k, rfl⟩ : ∃ (b : Fin 64) (i : Fin 128) (k : Fin 64), y = ix3 b i k := ⟨y 0, y 1, y 2, eq_ix3 y⟩
  rw [layer_apply, val_main_v34_apply, val_main_v25_apply, val_main_v16_apply]
  unfold val_main_v7 val_main_v15 val_main_v24 val_main_v33
  have hred : S64x128x128x64.Reduces [2] S64x128x64 := by decide
  rw [hostMax_apply _ _ _ hred, hostMax_apply _ _ _ hred, hostMax_apply _ _ _ hred, hostMax_apply _ _ _ hred]
  simp only [prod0_apply, prod1_apply, prod2_apply, prod3_apply]
  rfl

end Cert.GraphMaxPool.Ref

end
-- ==== Proof.lean ====
/-
  Graph max-pooling: out[b,i,k] = Σ_c max_j (adj[b,c,i,j] · x[b,j,k]) over x : f32[64,128,64] and adj : f32[64,4,128,128].

  The kernel handles eight batches per grid point; for each batch and each of the four channels it runs the maximum over the
  128 source nodes j in sixteen chunks of eight, started from minus infinity, and adds the four channel maxima starting from zero.
  The reference takes each channel's maximum over all 128 source nodes at once and adds the four in the same order.
  On the extended reals the two are one function of the arguments: a maximum taken chunk by chunk is the maximum over all the
  nodes (only the order is used: `maxBelow_chunk`, Proof/Spec.lean), and the zero the kernel's sum starts from adds nothing. No
  finiteness of the inputs is used: nothing is distributed or cancelled.

  Proof/Spec.lean states the function (`layer`); Proof/LibMaxChunk.lean reads one chunk at an index; Proof/Body.lean names what one
  trip of the body's loop stores; Proof/KernelValue.lean carries it through the eight trips, the eight grid points and the write-back
  to the kernel's result array; Proof/RefValue.lean reads the reference's stages at an index. The three frames are the generated
  ones (the reference's is its generated run with the result dropped), and nothing was rewritten between the kernel and its
  idealization.
-/
import proofs.«103894_j82815559402085_2_alg».proof.Defs
import proofs.«103894_j82815559402085_2_alg».proof.Proof.Gen.Kernel
import proofs.«103894_j82815559402085_2_alg».proof.Proof.Gen.Kernel.Skeleton
import proofs.«103894_j82815559402085_2_alg».proof.Proof.Gen.Kernel.Loops
import proofs.«103894_j82815559402085_2_alg».proof.Proof.Gen.Kernel.Launch
import proofs.«103894_j82815559402085_2_alg».proof.Proof.Gen.Kernel.Points
import proofs.«103894_j82815559402085_2_alg».proof.Proof.Gen.Kernel.Frame
import proofs.«103894_j82815559402085_2_alg».proof.Proof.Gen.KernelIdeal
import proofs.«103894_j82815559402085_2_alg».proof.Proof.Gen.KernelIdeal.Skeleton
import proofs.«103894_j82815559402085_2_alg».proof.Proof.Gen.KernelIdeal.Loops
import proofs.«103894_j82815559402085_2_alg».proof.Proof.Gen.KernelIdeal.Launch
import proofs.«103894_j82815559402085_2_alg».proof.Proof.Gen.KernelIdeal.Points
import proofs.«103894_j82815559402085_2_alg».proof.Proof.Gen.KernelIdeal.Frame
import proofs.«103894_j82815559402085_2_alg».proof.Proof.Gen.KernelIdeal.Value
import proofs.«103894_j82815559402085_2_alg».proof.Proof.Gen.ReferenceIdeal
import proofs.«103894_j82815559402085_2_alg».proof.Proof.Gen.ReferenceIdeal.Run
import proofs.«103894_j82815559402085_2_alg».proof.Proof.Gen.ReferenceIdeal.Read
import proofs.«103894_j82815559402085_2_alg».proof.Proof.Gen.Pre_finite_inputs
import proofs.«103894_j82815559402085_2_alg».proof.Proof.KernelValue
import proofs.«103894_j82815559402085_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as they were: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- On the extended reals the kernel's result array and the reference's are both the layer of the arguments: the kernel's by
    its run (Proof/KernelValue.lean), the reference's by its run read at an index (Proof/RefValue.lean), from arguments that agree. -/
theorem algebraic : Cert.algebraic_KernelIdeal_ReferenceIdeal := by
  intro m ρ m' ρ' _ hagree
  refine ⟨_, Cert.GraphMaxPool.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, Cert.GraphMaxPool.Ref.ref_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
